-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x64 .f32) (main_arg1 : FVec F S8192x8192 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S256x8192 : Shape := ⟨2, ![256, 8192]⟩
abbrev S256x64 : Shape := ⟨2, ![256, 64]⟩

abbrev nBuf : Space → Nat
  | .hbm => 3
  | .vmem => 5
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x64, .f32⟩
  | .local _ .vmem, ⟨0, _⟩ => ⟨S8192x64, .f32⟩
  | .local _ .vmem, ⟨1, _⟩ => ⟨S256x8192, .f32⟩
  | .local _ .vmem, ⟨2, _⟩ => ⟨S256x8192, .f32⟩
  | .local _ .vmem, ⟨3, _⟩ => ⟨S256x64, .f32⟩
  | .local _ .vmem, ⟨4, _⟩ => ⟨S256x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  inb_S8192x64_S8192x64_0_0 : ∀ a, (![0, 0] : Fin 2 → Nat) a + S8192x64.size a ≤ S8192x64.size a
  h_S8192x64 : 0 < S8192x64.numel
  natLt_1_32 : 1 < 32
  inb_S256x64_S256x64_0_0 : ∀ a, (![0, 0] : Fin 2 → Nat) a + S256x64.size a ≤ S256x64.size a
  h_S256x64 : 0 < S256x64.numel
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg0) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x64, .f32⟩
  | .hbm, ⟨3, _⟩ => ⟨S_, .f32⟩
  | .hbm, ⟨4, _⟩ => ⟨S8192x64, .f32⟩
  | .hbm, ⟨5, _⟩ => ⟨S8192x64, .i1⟩
  | .hbm, ⟨6, _⟩ => ⟨S_, .f32⟩
  | .hbm, ⟨7, _⟩ => ⟨S8192x64, .f32⟩
  | .hbm, ⟨8, _⟩ => ⟨S8192x64, .f32⟩
  | .hbm, ⟨9, _⟩ => ⟨S_, .f32⟩
  | .hbm, ⟨10, _⟩ => ⟨S8192x64, .f32⟩
  | .hbm, ⟨11, _⟩ => ⟨S8192x64, .i1⟩
  | .hbm, ⟨12, _⟩ => ⟨S8192x64, .f32⟩
  | .hbm, ⟨13, _⟩ => ⟨S_, .f32⟩
  | .hbm, ⟨14, _⟩ => ⟨S8192x64, .f32⟩
  | .hbm, ⟨15, _⟩ => ⟨S8192x64, .f32⟩
  | .hbm, ⟨16, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  dot_S8192x8192_S8192x64_S8192x64_1_0_0_1_n_n_wf : DotDims.WF S8192x8192 S8192x64 S8192x64 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.LibFiniteEntries.lean ====
/-
  A true `jnp.all(jnp.abs(x) < inf)` says that every entry of `x` is a real number.

  On the extended reals `|v| = max v (-v)` is `⊤` at both infinities, and the pattern of `+inf` denotes `⊤`; so
  `|v| < +inf` holds exactly when `v` is neither infinity, that is, when `v` is the coercion of a real.  A host reduce
  by `and` over every axis that comes out `1` had a `1` at every index, so each entry passed that comparison.
  Stated for any shape of `f32` entries, in the spelling a printed finiteness precondition has: the comparison
  `olt` of `Host.absf x` against the rank-0 constant `0x7F800000` broadcast to the shape, reduced into rank 0.
-/
import Idealize.ShloMosaic.PureOps.Ideal.Laws
import Idealize.ShloMosaic.Lib.ReduceAll

noncomputable section

namespace Cert.Lib.FiniteEntries

open Idealize.ShloMosaic

/-- The pattern of `+inf` denotes the top of the extended reals. -/
theorem ofBits_inf : Ideal.ofBits .f32 0x7F800000#32 = ⊤ := by
  simp [Ideal.ofBits, Ideal.ieee]

/-- An extended real whose absolute value is below `+inf` is a real. -/
theorem real_of_abs_lt_inf (v : EReal) (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | top => simp [Ideal.cmp] at h
  | coe r => exact ⟨r, rfl⟩

/-- The rank-0 shape has one index. -/
instance : Subsingleton (⟨0, ![]⟩ : Shape).Idx := ⟨fun _ _ => funext fun d => d.elim0⟩

/-- If `jnp.all(jnp.abs(x) < inf)`, as a host program prints it, is `1`, every entry of `x` is a real. -/
theorem entries_real {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel) (x : FVec Ideal s .f32)
    (j : (⟨0, ![]⟩ : Shape).Idx)
    (h : Host.reduce IntOp.andi
          (cmpf .olt (Host.absf x) (broadcastInDim s ![] hb (constant (F := Ideal) ⟨0, ![]⟩ .f32 0x7F800000#32)))
          (constantI ⟨0, ![]⟩ 1 1#1) hr hu j = 1#1)
    (i : s.Idx) : ∃ r : ℝ, x i = (r : EReal) :=
  real_of_abs_lt_inf (x i) (Host.reduce_andi_all _ _ hr hu j h i)

end Cert.Lib.FiniteEntries

end
-- ==== Proof.FiniteInputs.lean ====
/-
  The precondition read back: where `finite_inputs` holds, every entry of `x` and every entry of `a` is a real.

  The precondition is the conjunction of two `jnp.all(jnp.abs(·) < inf)`, one per argument; a conjunction of bits is
  `1` when both are, and each conjunct gives its array's entries by the general reading of such a reduce.
-/
import proofs.«126783_g41077067219108_cont_8to1_b_1616_16_alg».proof.Pre_finite_inputs
import proofs.«126783_g41077067219108_cont_8to1_b_1616_16_alg».proof.Proof.LibFiniteEntries
import Idealize.ShloMosaic.Lib.ValueIdx

noncomputable section

namespace Cert.FiniteInputs

open Idealize.ShloMosaic

variable [Cert.Pre_finite_inputs.Facts]

/-- Under `finite_inputs` both argument arrays hold reals only. -/
theorem inputs_real (x : FVec Ideal Cert.Pre_finite_inputs.S8192x64 .f32) (a : FVec Ideal Cert.Pre_finite_inputs.S8192x8192 .f32)
    (h : Cert.Pre_finite_inputs.fn (F := Ideal) x a = fun _ => 1#1) :
    (∀ j, ∃ r : ℝ, x j = (r : EReal)) ∧ (∀ j, ∃ r : ℝ, a j = (r : EReal)) := by
  have h0 := congrFun h ValueIdx.ix0
  dsimp only [Cert.Pre_finite_inputs.fn] at h0
  obtain ⟨hx, ha⟩ := IntOp.andi_eq_one.1 h0
  exact ⟨Cert.Lib.FiniteEntries.entries_real _ _ _ x _ hx, Cert.Lib.FiniteEntries.entries_real _ _ _ a _ ha⟩

end Cert.FiniteInputs

end
-- ==== Proof.Threshold.lean ====
/-
  The thresholded matrix product as one function of the two argument arrays, and the scalar laws by which the two
  programs' spellings of it meet.

  For `x : [8192, 64]` and `a : [8192, 8192]` the result at `(r, c)` is `1` where the entry
  `t = ∑ k, a (r, k) * x (k, c)` of the product `a · x` is above one half, and `0` elsewhere.  One program converts
  the comparison's bit to a float: the bit read as an integer is `1` or `0`.  The other selects between the quotient
  `s / s`, with `s = t` above the threshold and `s = 1` elsewhere, and the product `t * 0`: above the threshold
  `t` is positive, so for a real `t` the quotient is `1`; elsewhere the product is `0`.  The quotient needs `t`
  real (on the extended reals `⊤ / ⊤` is not `1`), and a sum of products of reals is real.
-/
import Idealize.ShloMosaic.PureOps.Ideal.Laws
import Idealize.ShloMosaic.Lib.ValueIdx

noncomputable section

namespace Cert.Threshold

open Idealize.ShloMosaic Idealize.ShloMosaic.ValueIdx

/-! ## The three float patterns -/

/-- The threshold's pattern denotes one half. -/
theorem ofBits_half : Ideal.ofBits .f32 0x3F000000#32 = ((1 / 2 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- The threshold is not negative: an entry above it is positive. -/
theorem half_nonneg : (0 : EReal) ≤ Ideal.ofBits .f32 0x3F000000#32 := by
  rw [ofBits_half]
  exact_mod_cast (by norm_num : (0 : ℝ) ≤ 1 / 2)

/-! ## The specification -/

/-- Entry `i = (r, c)` of the product `a · x`: the sum over `k` of `a (r, k) * x (k, c)`. -/
def entry (x : (⟨2, ![8192, 64]⟩ : Shape).Idx → EReal) (a : (⟨2, ![8192, 8192]⟩ : Shape).Idx → EReal)
    (i : (⟨2, ![8192, 64]⟩ : Shape).Idx) : EReal :=
  ∑ k : Fin 8192, a (ix2 (i 0) k) * x (ix2 k (i 1))

/-- The result: `1` where the product's entry is above one half, `0` elsewhere. -/
def indicator (x : (⟨2, ![8192, 64]⟩ : Shape).Idx → EReal) (a : (⟨2, ![8192, 8192]⟩ : Shape).Idx → EReal) :
    (⟨2, ![8192, 64]⟩ : Shape).Idx → EReal :=
  fun i => if Ideal.ofBits .f32 0x3F000000#32 < entry x a i then 1 else 0

/-! ## The comparison's bit as a float -/

/-- The bit of `c < t`, widened to a word and read as a signed integer, is `1` where `c < t` and `0` elsewhere. -/
theorem bit_as_float (c t : EReal) :
    (((BitVec.setWidth 32 (Ideal.cmp .ogt t c)).toInt : ℝ) : EReal) = if c < t then 1 else 0 := by
  by_cases h : c < t
  · have e : Ideal.cmp .ogt t c = 1#1 := by simp [Ideal.cmp, h]
    rw [e, if_pos h]
    norm_num
  · have e : Ideal.cmp .ogt t c = 0#1 := by simp [Ideal.cmp, h]
    rw [e, if_neg h]
    norm_num

/-! ## The guarded quotient -/

/-- A nonzero real divided by itself is `1`. -/
theorem div_self_coe {r : ℝ} (h : r ≠ 0) : Ideal.div (r : EReal) (r : EReal) = 1 := by
  rw [Ideal.div_coe h, ← EReal.coe_mul, mul_one_div_cancel h, EReal.coe_one]

/-- For a threshold `c ≥ 0` and a real `t`: selecting `s / s` (`s = t` above the threshold, `1` elsewhere) above the
    threshold and `t * 0` elsewhere gives `1` above the threshold and `0` elsewhere. -/
theorem guarded_quotient (c : EReal) (hc : 0 ≤ c) (r : ℝ) :
    Scalar.select (Ideal.cmp .ogt (r : EReal) c)
        (Ideal.div (Scalar.select (Ideal.cmp .ogt (r : EReal) c) (r : EReal) 1) (Scalar.select (Ideal.cmp .ogt (r : EReal) c) (r : EReal) 1))
        ((r : EReal) * 0)
      = if c < (r : EReal) then 1 else 0 := by
  by_cases h : c < (r : EReal)
  · have e : Ideal.cmp .ogt (r : EReal) c = 1#1 := by simp [Ideal.cmp, h]
    have hr : r ≠ 0 := fun h0 => absurd (lt_of_le_of_lt hc h) (by rw [h0, EReal.coe_zero]; exact lt_irrefl _)
    rw [e, if_pos h, select_one, select_one, div_self_coe hr]
  · have e : Ideal.cmp .ogt (r : EReal) c = 0#1 := by simp [Ideal.cmp, h]
    rw [e, if_neg h, select_zero, mul_zero]

/-! ## A sum of products of reals is real -/

/-- The coercion of the reals into the extended reals commutes with a finite sum of products. -/
theorem sum_coe_mul {ι : Type*} (s : Finset ι) (f g : ι → ℝ) :
    ∑ k ∈ s, ((f k : EReal) * (g k : EReal)) = ((∑ k ∈ s, f k * g k : ℝ) : EReal) := by
  classical
  induction s using Finset.induction_on with
  | empty => simp
  | insert b s hb ih => rw [Finset.sum_insert hb, Finset.sum_insert hb, ih, EReal.coe_add, EReal.coe_mul]

/-- With every entry of both arrays real, every entry of the product is real. -/
theorem entry_real (x : (⟨2, ![8192, 64]⟩ : Shape).Idx → EReal) (a : (⟨2, ![8192, 8192]⟩ : Shape).Idx → EReal)
    (hx : ∀ j, ∃ r : ℝ, x j = (r : EReal)) (ha : ∀ j, ∃ r : ℝ, a j = (r : EReal)) (i : (⟨2, ![8192, 64]⟩ : Shape).Idx) :
    ∃ r : ℝ, entry x a i = (r : EReal) := by
  choose fx hfx using hx
  choose fa hfa using ha
  refine ⟨∑ k : Fin 8192, fa (ix2 (i 0) k) * fx (ix2 k (i 1)), ?_⟩
  unfold entry
  simp only [hfx, hfa]
  exact sum_coe_mul _ _ _

/-- So, for real arrays, the guarded quotient of the product's entry is the indicator. -/
theorem guarded_quotient_entry (x : (⟨2, ![8192, 64]⟩ : Shape).Idx → EReal) (a : (⟨2, ![8192, 8192]⟩ : Shape).Idx → EReal)
    (hx : ∀ j, ∃ r : ℝ, x j = (r : EReal)) (ha : ∀ j, ∃ r : ℝ, a j = (r : EReal)) (i : (⟨2, ![8192, 64]⟩ : Shape).Idx) :
    Scalar.select (Ideal.cmp .ogt (entry x a i) (Ideal.ofBits .f32 0x3F000000#32))
        (Ideal.div (Scalar.select (Ideal.cmp .ogt (entry x a i) (Ideal.ofBits .f32 0x3F000000#32)) (entry x a i) 1)
          (Scalar.select (Ideal.cmp .ogt (entry x a i) (Ideal.ofBits .f32 0x3F000000#32)) (entry x a i) 1))
        (entry x a i * 0)
      = indicator x a i := by
  obtain ⟨r, hr⟩ := entry_real x a hx ha i
  unfold indicator
  rw [hr]
  exact guarded_quotient _ half_nonneg r

end Cert.Threshold

end
-- ==== Proof.ReferenceValue.lean ====
/-
  The reference's result, for real argument arrays, is the indicator of the product's entries above one half.

  The reference forms the product `t = a · x` once and reads it five times: in two copies of the comparison
  `t > 1/2`, in the guarded divisor `s = where(t > 1/2, t, 1)`, and in the product `t * 0`; its result is
  `where(t > 1/2, s / s, t * 0)`.  Index by index the product is the sum over `k` of `a (r, k) * x (k, c)`, the
  specification's entry, and the selection is the guarded quotient, which for real arrays is the indicator.
-/
import proofs.«126783_g41077067219108_cont_8to1_b_1616_16_alg».proof.Proof.Gen.ReferenceIdeal.Read
import proofs.«126783_g41077067219108_cont_8to1_b_1616_16_alg».proof.Proof.Threshold

noncomputable section

namespace Cert.ReferenceIdeal.RefValue

open Cert.ReferenceIdeal Cert.ReferenceIdeal.Gen Cert.ReferenceIdeal.Read
open Idealize.ShloMosaic Idealize.ShloMosaic.ValueIdx

/-- The left operand of the product at result index `i` and contraction index `k` is read at `(i 0, k)`. -/
theorem lidx_eq (i : S8192x64.Idx) (k : Fin 8192) : lidx_main_v0 i k = ix2 (i 0) k :=
  funext fun a => by match a with | ⟨0, _⟩ => rfl | ⟨1, _⟩ => rfl

/-- The right operand is read at `(k, i 1)`. -/
theorem ridx_eq (i : S8192x64.Idx) (k : Fin 8192) : ridx_main_v0 i k = ix2 k (i 1) :=
  funext fun a => by match a with | ⟨0, _⟩ => rfl | ⟨1, _⟩ => rfl

/-- The reference's `dot_general`, read at an index, is the specification's entry of `a · x`. -/
theorem product_entry (x0 : (⟨S8192x64, .f32⟩ : BufTy).Contents (Elt Ideal)) (x1 : (⟨S8192x8192, .f32⟩ : BufTy).Contents (Elt Ideal))
    (i : S8192x64.Idx) : val_main_v0 (F := Ideal) x0 x1 i = Cert.Threshold.entry x0 x1 i := by
  rw [val_main_v0_apply]
  unfold Cert.Threshold.entry
  refine Finset.sum_congr rfl fun k _ => ?_
  rw [lidx_eq, ridx_eq]
  rfl

/-- For real argument arrays the reference's result is the indicator. -/
theorem result_eq (x0 : (⟨S8192x64, .f32⟩ : BufTy).Contents (Elt Ideal)) (x1 : (⟨S8192x8192, .f32⟩ : BufTy).Contents (Elt Ideal))
    (hx : ∀ j, ∃ r : ℝ, x0 j = (r : EReal)) (ha : ∀ j, ∃ r : ℝ, x1 j = (r : EReal)) :
    val_main_v10 (F := Ideal) x0 x1 = Cert.Threshold.indicator x0 x1 := by
  funext i
  rw [val_main_v10_apply, val_main_v6_apply, val_main_v7_apply, val_main_v9_apply, val_main_v4_apply, val_main_v2_apply,
    val_main_v1_apply, val_main_v3_apply, val_main_v5_apply, val_main_v8_apply, val_main_cst_apply, val_main_cst_0_apply,
    val_main_cst_1_apply, val_main_cst_2_apply, product_entry]
  simp only [Ideal.cmpf_def, Ideal.hostDivf_def, Ideal.mulf_def, Ideal.ofBits_def, Cert.Threshold.ofBits_one, Ideal.ofBits_zero_f32]
  exact Cert.Threshold.guarded_quotient_entry x0 x1 hx ha i

end Cert.ReferenceIdeal.RefValue

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.KernelBlock.lean ====
/-
  What the kernel's body computes on one block, read at a row and a column.

  At a grid point the body loads a block of 256 rows of `a` and the whole of `x`, multiplies them into a zero
  accumulator, compares each entry of the product with one half, and stores the comparison's bit converted to a
  float.  Read at row `p` and column `q` of the block the product is the sum over `k` of
  `rows (p, k) * x (k, q)`, and the stored value is `1` where that sum is above one half and `0` elsewhere.
-/
import proofs.«126783_g41077067219108_cont_8to1_b_1616_16_alg».proof.Proof.Gen.KernelIdeal.Skeleton
import proofs.«126783_g41077067219108_cont_8to1_b_1616_16_alg».proof.Proof.LibPlainMatmul
import proofs.«126783_g41077067219108_cont_8to1_b_1616_16_alg».proof.Proof.Threshold

noncomputable section

namespace Cert.KernelIdeal.Block

open Cert.KernelIdeal Cert.KernelIdeal.Gen
open Idealize.ShloMosaic Idealize.ShloMosaic.ValueIdx

/-- The body's stored value at `(p, q)` of its block, from the loaded rows of `a` and the loaded `x`. -/
theorem payload_apply (rows : Vec Ideal S256x8192 .f32) (x : Vec Ideal S8192x64 .f32) (p : Fin 256) (q : Fin 64) :
    k0_pay1 (F := Ideal) rows x (ix2 p q)
      = if Ideal.ofBits .f32 0x3F000000#32 < ∑ k : Fin 8192, rows (ix2 p k) * x (ix2 k q) then 1 else 0 := by
  unfold k0_pay1
  rw [sitofp_apply, extui_apply, cmpf_apply, broadcast_apply]
  refine Eq.trans ?_ (Cert.Threshold.bit_as_float (Ideal.ofBits .f32 0x3F000000#32) (∑ k : Fin 8192, rows (ix2 p k) * x (ix2 k q)))
  rw [← Cert.Lib.PlainMatmul.matmul_zero_apply dot_S256x8192_S8192x64_S256x64_1_0_0_1_n_n rfl rfl rfl rfl rfl rfl none rows x p q]
  rfl

/-- The block's stored value at `y` is the indicator at `i` of any arrays `X`, `A` such that row `y 0` of the loaded
    rows is row `i 0` of `A` and column `y 1` of the loaded `x` is column `i 1` of `X`: the two sums then agree term
    by term. -/
theorem block_entry (X : S8192x64.Idx → EReal) (A : S8192x8192.Idx → EReal)
    (rows : Vec Ideal S256x8192 .f32) (x : Vec Ideal S8192x64 .f32) (y : S256x64.Idx) (i : S8192x64.Idx)
    (hx : ∀ k : Fin 8192, x (ix2 k (y 1)) = X (ix2 k (i 1)))
    (hrows : ∀ k : Fin 8192, rows (ix2 (y 0) k) = A (ix2 (i 0) k)) :
    k0_pay1 (F := Ideal) rows x y = Cert.Threshold.indicator X A i := by
  have hsum : ∑ k : Fin 8192, rows (ix2 (y 0) k) * x (ix2 k (y 1)) = ∑ k : Fin 8192, A (ix2 (i 0) k) * X (ix2 k (i 1)) :=
    Finset.sum_congr rfl fun k _ => congrArg₂ (· * ·) (hrows k) (hx k)
  refine (congrArg (k0_pay1 (F := Ideal) rows x) (eq_ix2 y)).trans ((payload_apply rows x (y 0) (y 1)).trans ?_)
  exact congrArg (fun s : EReal => if Ideal.ofBits .f32 0x3F000000#32 < s then (1 : EReal) else 0) hsum

end Cert.KernelIdeal.Block

end
-- ==== Proof.KernelValue.lean ====
/-
  From blocks to the array: after the kernel's run the result array is the indicator of the whole product.

  The grid has 32 points.  At point `t` the window of `x` is the whole of `x`, the window of `a` is rows
  `256 t … 256 t + 255`, and the result's window is the same rows of the result.  So what point `t` writes back — the
  body's value on its blocks — is, at row `p` and column `q` of the block, the indicator at `(256 t + p, q)` of the
  argument arrays: block `t` of ONE function of the arrays.  Row `r` of the result lies in the block of point
  `r / 256`, so the blocks cover the array, and the array ends holding that function.
-/
import proofs.«126783_g41077067219108_cont_8to1_b_1616_16_alg».proof.Proof.Gen.KernelIdeal.Value
import proofs.«126783_g41077067219108_cont_8to1_b_1616_16_alg».proof.Proof.KernelBlock

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the window of `x` stays at block `(0, 0)`; the windows of `a` and of the result
    are at block `(t, 0)`. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The window of `x` holds the whole of `x` at every point. -/
theorem xblock_apply (c : Dev nD) (t : Fin cfg0.N) (y : S8192x64.Idx) (i : S8192x64.Idx)
    (h0 : (i 0).val = (y 0).val) (h1 : (i 1).val = (y 1).val) :
    (iblk m c 0 t : Vec Ideal S8192x64 .f32) y = V m c main_arg0 i := by
  obtain ⟨e0, e1, -⟩ := idx_facts t
  unfold iblk
  rw [View.read_apply]
  show V m c main_arg0 _ = V m c main_arg0 _
  refine congrArg _ (funext fun a => Fin.ext ?_)
  match a with
  | ⟨0, _⟩ => show win0_0.index t 0 * 8192 + 1 * (y 0).val = (i 0).val; rw [e0, h0]; omega
  | ⟨1, _⟩ => show win0_0.index t 1 * 64 + 1 * (y 1).val = (i 1).val; rw [e1, h1]; omega

/-- The window of `a` at point `t` holds rows `256 t … 256 t + 255` of `a`. -/
theorem rows_apply (c : Dev nD) (t : Fin cfg0.N) (y : S256x8192.Idx) (i : S8192x8192.Idx)
    (h0 : (i 0).val = t.val * 256 + (y 0).val) (h1 : (i 1).val = (y 1).val) :
    (iblk m c 1 t : Vec Ideal S256x8192 .f32) y = V m c main_arg1 i := by
  obtain ⟨-, -, e2, e3, -⟩ := idx_facts t
  unfold iblk
  rw [View.read_apply]
  show V m c main_arg1 _ = V m c main_arg1 _
  refine congrArg _ (funext fun a => Fin.ext ?_)
  match a with
  | ⟨0, _⟩ => show win0_1.index t 0 * 256 + 1 * (y 0).val = (i 0).val; rw [e2, h0]; omega
  | ⟨1, _⟩ => show win0_1.index t 1 * 8192 + 1 * (y 1).val = (i 1).val; rw [e3, h1]; omega

/-- WHAT POINT `t` WRITES BACK is block `t` of the indicator of the argument arrays. -/
theorem flushed_eq (c : Dev nD) (t : Fin cfg0.N) :
    (dats m 0 c).flushed 2 t
      = ((cfg0.win 2).blk t).view.read (Elt Ideal) (Cert.Threshold.indicator (V m c main_arg0) (V m c main_arg1)) := by
  rw [Value.flushed2]
  unfold out0_2
  rw [View.canon_unit_zero hz]
  simp only [View.ld_unit_zero (S := S256x8192) hz, View.ld_unit_zero (S := S8192x64) hz]
  obtain ⟨-, -, -, -, e4, e5⟩ := idx_facts t
  funext j
  show k0_pay1 (iblk m c 1 t) (iblk m c 0 t) j
    = Cert.Threshold.indicator (V m c main_arg0) (V m c main_arg1) (((cfg0.win 2).blk t).view.emb j)
  have hj0 : ((((cfg0.win 2).blk t).view.emb j) 0).val = t.val * 256 + (j 0).val := by
    show win0_2.index t 0 * 256 + 1 * (j 0).val = _
    rw [e4]; omega
  have hj1 : ((((cfg0.win 2).blk t).view.emb j) 1).val = (j 1).val := by
    show win0_2.index t 1 * 64 + 1 * (j 1).val = _
    rw [e5]; omega
  refine Cert.KernelIdeal.Block.block_entry (V m c main_arg0) (V m c main_arg1) (iblk m c 1 t) (iblk m c 0 t) j
    (((cfg0.win 2).blk t).view.emb j) (fun k => ?_) (fun k => ?_)
  · exact xblock_apply m c t (ix2 k (j 1)) (ix2 k ((((cfg0.win 2).blk t).view.emb j) 1)) rfl hj1
  · exact rows_apply m c t (ix2 (j 0) k) (ix2 ((((cfg0.win 2).blk t).view.emb j) 0) k) hj0 rfl

/-- An index of the result is in point `t`'s block iff each coordinate is in the block's range on its axis. -/
theorem mem_blk (t : Fin cfg0.N) (i : S8192x64.Idx) :
    i ∈ ((cfg0.win 2).blk t).view.set ↔ ∀ a : Fin 2, win0_2.index t a * S256x64.size a ≤ (i a).val
      ∧ (i a).val < win0_2.index t a * S256x64.size a + S256x64.size a := by
  show i ∈ ((View.whole main_v0).slice (win0_2.rect t)).set ↔ _
  rw [View.set_slice_whole, Rect.mem_set_unit]
  exact Iff.rfl

/-- Every index of the result is in some point's block: row `r` in the block of point `r / 256`. -/
theorem cover (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  have hN : grid0.N = 32 := N_0
  have ht : (i 0).val / 256 < cfg0.N := by
    show (i 0).val / 256 < grid0.N
    omega
  obtain ⟨-, -, -, -, e4, e5⟩ := idx_facts ⟨(i 0).val / 256, ht⟩
  have e4' : win0_2.index ⟨(i 0).val / 256, ht⟩ (0 : Fin 2) = (i 0).val / 256 := e4
  refine ⟨⟨(i 0).val / 256, ht⟩, flush0_2 _, ?_⟩
  rw [mem_blk]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e4']; omega
  | ⟨1, _⟩ =>
    show win0_2.index ⟨(i 0).val / 256, ht⟩ (1 : Fin 2) * 64 ≤ (i 1).val
      ∧ (i 1).val < win0_2.index ⟨(i 0).val / 256, ht⟩ (1 : Fin 2) * 64 + 64
    rw [e5]; omega

/-- THE ARRAY after the run: the indicator of the argument arrays. -/
theorem final (c : Dev nD) :
    (dats m 0 c).arrAt 2 cfg0.N
      = Cert.Threshold.indicator (m ((c : Thread nD τ).loc main_arg0)) (m ((c : Thread nD τ).loc main_arg1)) :=
  (dats m 0 c).arrAt_eq_of_cover 2 (Cert.Threshold.indicator (V m c main_arg0) (V m c main_arg1))
    (fun t _ => flushed_eq m c t) cover

/-- The kernel's run, read: the result array at the indicator of the argument arrays, the arguments unchanged. -/
theorem run : θ_run defs (onTc (τ := τ) (main (F := Ideal))) ⟨m, fun _ => 0, ρ⟩ fun r => ∀ c : Dev nD,
      r.2.mem ((c : Thread nD τ).loc main_v0)
        = Cert.Threshold.indicator (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  The kernel `(a · x > 1/2)` as a float, against the reference `where(t > 1/2, s / s, t * 0)` with `t = a · x` and
  `s = where(t > 1/2, t, 1)`, for `x : [8192, 64]` and `a : [8192, 8192]`, on the extended reals.

  Both programs form the product `t (r, c) = ∑ k, a (r, k) * x (k, c)` and compare it with one half.  The kernel, on a
  grid of 32 blocks of 256 rows, converts the comparison's bit to a float: `1` above the threshold, `0` elsewhere.
  The reference divides the guarded entry by itself above the threshold and multiplies the entry by zero elsewhere.
  The two agree where `t` is real: then `t > 1/2` makes `t` a nonzero real, so `t / t = 1`, and `t * 0 = 0`.  An
  infinite `t` would break the quotient (`⊤ / ⊤` is not `1` on the extended reals), and this is where the
  precondition enters: every entry of `x` and of `a` is finite, so every entry of the product, a finite sum of
  products of reals, is real.

  The modules: `Threshold` states the result as one function of the two arrays (`indicator`) and proves the scalar
  laws; `FiniteInputs` reads the precondition back as "every entry is a real"; `ReferenceValue` shows the
  reference's result is the indicator for real arrays; `KernelBlock` reads the kernel's body on one block at a row
  and a column; `KernelValue` assembles the 32 blocks into the whole array.  The frames of the two kernel programs
  and the runs of both sides are the imported generated modules'.
-/
import proofs.«126783_g41077067219108_cont_8to1_b_1616_16_alg».proof.Defs
import proofs.«126783_g41077067219108_cont_8to1_b_1616_16_alg».proof.Proof.Gen.Kernel
import proofs.«126783_g41077067219108_cont_8to1_b_1616_16_alg».proof.Proof.Gen.Kernel.Skeleton
import proofs.«126783_g41077067219108_cont_8to1_b_1616_16_alg».proof.Proof.Gen.Kernel.Launch
import proofs.«126783_g41077067219108_cont_8to1_b_1616_16_alg».proof.Proof.Gen.Kernel.Points
import proofs.«126783_g41077067219108_cont_8to1_b_1616_16_alg».proof.Proof.Gen.Kernel.Frame
import proofs.«126783_g41077067219108_cont_8to1_b_1616_16_alg».proof.Proof.Gen.KernelIdeal
import proofs.«126783_g41077067219108_cont_8to1_b_1616_16_alg».proof.Proof.Gen.KernelIdeal.Skeleton
import proofs.«126783_g41077067219108_cont_8to1_b_1616_16_alg».proof.Proof.Gen.KernelIdeal.Launch
import proofs.«126783_g41077067219108_cont_8to1_b_1616_16_alg».proof.Proof.Gen.KernelIdeal.Points
import proofs.«126783_g41077067219108_cont_8to1_b_1616_16_alg».proof.Proof.Gen.KernelIdeal.Frame
import proofs.«126783_g41077067219108_cont_8to1_b_1616_16_alg».proof.Proof.Gen.ReferenceIdeal
import proofs.«126783_g41077067219108_cont_8to1_b_1616_16_alg».proof.Proof.Gen.Pre_finite_inputs
import proofs.«126783_g41077067219108_cont_8to1_b_1616_16_alg».proof.Proof.Gen.KernelIdeal.Value
import proofs.«126783_g41077067219108_cont_8to1_b_1616_16_alg».proof.Proof.Gen.ReferenceIdeal.Run
import proofs.«126783_g41077067219108_cont_8to1_b_1616_16_alg».proof.Proof.Gen.ReferenceIdeal.Read
import proofs.«126783_g41077067219108_cont_8to1_b_1616_16_alg».proof.Proof.FiniteInputs
import proofs.«126783_g41077067219108_cont_8to1_b_1616_16_alg».proof.Proof.ReferenceValue
import proofs.«126783_g41077067219108_cont_8to1_b_1616_16_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs, and leaves `x` and `a` as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- From memories that agree on finite `x` and `a`, both programs end with the indicator of the entries of `a · x`
    above one half: the kernel's array block by block, the reference's by the guarded quotient on real entries. -/
theorem algebraic : Cert.algebraic_KernelIdeal_ReferenceIdeal := by
  intro m ρ m' ρ' hpre hagree
  refine ⟨fun c => Cert.Threshold.indicator
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha⟩ := Cert.FiniteInputs.inputs_real _ _ (hpre c)
  rw [Cert.ReferenceIdeal.Read.val_main_v10_eq, (hagree c).1, (hagree c).2]
  exact Cert.ReferenceIdeal.RefValue.result_eq _ _ hx ha

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
